-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 57
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S1x64, .f32⟩
  | .hbm, ⟨56, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000x128, .f32⟩
  | .hbm, ⟨32, _⟩ => ⟨S100000x128, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_cst : Ref sig .tc := ⟨.hbm, 30, rfl⟩
abbrev main_call0_v0 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result NAMED.

  The program is three dense regions among three stretches of host operations. Running it from a memory m leaves
  every buffer that outlives the kernels at the contents of the last boundary of a fold through the six segments:
  a host stretch maps the contents by its operations, a region replaces its arrays by what its write-backs leave.
  The result array is one of those buffers, so it ends at that fold's value; the argument arrays end as launched.
-/
import proofs.«116238_j45792941310041_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, and every buffer that outlives the kernels then holds the
    last boundary's contents of the fold through the segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with the result named: the result array ends at the fold's value there, each argument array as launched. -/
theorem run_value : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)
    (run_all m ρ)

end Cert.KernelIdeal.Whole

end
-- ==== Proof.Block.lean ====
/-
  One grid point of the dense step, read entry by entry on the extended reals.

  A point holds a block of 5000 rows. Its body adds the feature block and the neighbour-sum block, multiplies by the
  whole weight matrix and adds the bias row (then, in the two hidden layers, takes the maximum with zero). The changes
  of float format around the product are the identity on the extended reals, and the product into a zero accumulator
  is the plain contraction sum, so entry (p, q) of the stored block is

      max ( (∑ k, (x (p,k) + a (p,k)) * w (k,q)) + b (0,q) ) 0      (hidden layers)
            (∑ k, (x (p,k) + a (p,k)) * w (k,q)) + b (0,q)          (last layer)

  Only row p of the two row blocks, column q of the weights and entry q of the bias row enter.
-/
import proofs.«116238_j45792941310041_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Block

open Idealize.ShloMosaic Idealize.ShloMosaic.ValueIdx Cert.KernelIdeal Cert.KernelIdeal.Gen

/-! ### The 5000x128 by 128x128 product -/

/-- Coordinates of the left operand's index: the output row, then the contracted index. -/
theorem matmul_sq_lhs0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem matmul_sq_lhs1 (i : S5000x128.Idx) (c : dot_S5000x128_S128x128_S5000x128_1_0_0_1_n_n.contr.Idx) : (dot_S5000x128_S128x128_S5000x128_1_0_0_1_n_n.lhsIdx i c 1).val = (c ⟨0, by decide⟩).val :=
  dot_S5000x128_S128x128_S5000x128_1_0_0_1_n_n.lhsIdx_val_of_single rfl i c
/-- Coordinates of the right operand's index: the contracted index, then the output column. -/
theorem matmul_sq_rhs0 (i : S5000x128.Idx) (c : dot_S5000x128_S128x128_S5000x128_1_0_0_1_n_n.contr.Idx) : (dot_S5000x128_S128x128_S5000x128_1_0_0_1_n_n.rhsIdx i c 0).val = (c ⟨0, by decide⟩).val :=
  dot_S5000x128_S128x128_S5000x128_1_0_0_1_n_n.rhsIdx_val_of_single rfl i c
theorem matmul_sq_rhs1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Into the zero accumulator, at (p, q): the sum over the contracted index of row p of the left factor times
    column q of the right one. -/
theorem matmul_sq_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun a => Fin.ext (by
      match a with
      | ⟨0, _⟩ => exact matmul_sq_lhs0 _ _
      | ⟨1, _⟩ => exact (matmul_sq_lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun a => Fin.ext (by
      match a with
      | ⟨0, _⟩ => exact (matmul_sq_rhs0 _ _).trans hk
      | ⟨1, _⟩ => exact matmul_sq_rhs1 _ _)
  rw [el, er]

/-! ### The 5000x128 by 128x64 product -/

/-- Coordinates of the left operand's index: the output row, then the contracted index. -/
theorem matmul_out_lhs0 (i : S5000x64.Idx) (c : dot_S5000x128_S128x64_S5000x64_1_0_0_1_n_n.contr.Idx) : (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem matmul_out_lhs1 (i : S5000x64.Idx) (c : dot_S5000x128_S128x64_S5000x64_1_0_0_1_n_n.contr.Idx) : (dot_S5000x128_S128x64_S5000x64_1_0_0_1_n_n.lhsIdx i c 1).val = (c ⟨0, by decide⟩).val :=
  dot_S5000x128_S128x64_S5000x64_1_0_0_1_n_n.lhsIdx_val_of_single rfl i c
/-- Coordinates of the right operand's index: the contracted index, then the output column. -/
theorem matmul_out_rhs0 (i : S5000x64.Idx) (c : dot_S5000x128_S128x64_S5000x64_1_0_0_1_n_n.contr.Idx) : (dot_S5000x128_S128x64_S5000x64_1_0_0_1_n_n.rhsIdx i c 0).val = (c ⟨0, by decide⟩).val :=
  dot_S5000x128_S128x64_S5000x64_1_0_0_1_n_n.rhsIdx_val_of_single rfl i c
theorem matmul_out_rhs1 (i : S5000x64.Idx) (c : dot_S5000x128_S128x64_S5000x64_1_0_0_1_n_n.contr.Idx) : (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The same sum for the last layer's narrower product. -/
theorem matmul_out_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact matmul_out_lhs0 _ _
      | ⟨1, _⟩ => exact (matmul_out_lhs1 _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (matmul_out_rhs0 _ _).trans hk
      | ⟨1, _⟩ => exact matmul_out_rhs1 _ _)
  rw [el, er]

/-! ### The stored block, entry by entry -/

/-- The bias row broadcast down the 5000 rows reads, at (p, q), entry (0, q) of the row. -/
theorem bias_row_apply (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-- The same for the last layer's row of 64. -/
theorem bias_row_out_apply (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => show (0 : Nat) = if (1 : Nat) = 1 then 0 else _; rw [if_pos rfl]
    | ⟨1, _⟩ => show q.val = if (64 : Nat) = 1 then 0 else q.val; rw [if_neg (by decide)])

/-- First hidden layer: entry (p, q) of what a point stores. -/
theorem pay0_apply (x0 x1 : Vec Ideal S5000x128 .f32) (w : Vec Ideal S128x128 .f32) (b : Vec Ideal S1x128 .f32)
    (p : Fin 5000) (q : Fin 128) :
    k0_pay1 x0 x1 w b (ix2 p q)
      = max ((∑ k : Fin 128, (x0 (ix2 p k) + x1 (ix2 p k)) * w (ix2 k q)) + b (ix2 0 q))
          (Ideal.ofBits .f32 0x00000000#32) := by
  unfold k0_pay1
  rw [maximumf_apply, addf_apply, matmul_sq_apply]
  simp only [shapeCast_self, bias_row_apply, truncf_apply, addf_apply, broadcast_apply]
  rfl

/-- Second hidden layer: the same entry (both row blocks pass through an identity reshape first). -/
theorem pay1_apply (x0 x1 : Vec Ideal S5000x128 .f32) (w : Vec Ideal S128x128 .f32) (b : Vec Ideal S1x128 .f32)
    (p : Fin 5000) (q : Fin 128) :
    k1_pay1 x0 x1 w b (ix2 p q)
      = max ((∑ k : Fin 128, (x0 (ix2 p k) + x1 (ix2 p k)) * w (ix2 k q)) + b (ix2 0 q))
          (Ideal.ofBits .f32 0x00000000#32) := by
  unfold k1_pay1
  rw [maximumf_apply, addf_apply, matmul_sq_apply]
  simp only [shapeCast_self, bias_row_apply, truncf_apply, addf_apply, broadcast_apply]
  rfl

/-- Last layer: no maximum, and 64 output columns. -/
theorem pay2_apply (x0 x1 : Vec Ideal S5000x128 .f32) (w : Vec Ideal S128x64 .f32) (b : Vec Ideal S1x64 .f32)
    (p : Fin 5000) (q : Fin 64) :
    k2_pay1 x0 x1 w b (ix2 p q)
      = (∑ k : Fin 128, (x0 (ix2 p k) + x1 (ix2 p k)) * w (ix2 k q)) + b (ix2 0 q) := by
  unfold k2_pay1
  rw [addf_apply, matmul_out_apply]
  simp only [shapeCast_self, bias_row_out_apply, truncf_apply, addf_apply]

end Cert.KernelIdeal.Block

end
-- ==== Proof.Layer.lean ====
/-
  The dense step as ONE function of whole arrays, and how a grid point's stored block is a piece of it.

  The 100000 rows are cut into 20 blocks of 5000; a point reads one block of the feature array and of the
  neighbour-sum array, the whole weight matrix and the whole bias row. Entry (p, q) of what it stores depends only on
  row p of the two row blocks, column q of the weights and entry q of the bias row; when those are row r of the
  arrays, column q and entry q, the stored entry is the whole-array function at (r, q).
-/
import proofs.«116238_j45792941310041_1_alg».proof.Proof.Block

noncomputable section

namespace Cert.KernelIdeal.Layer

open Idealize.ShloMosaic Idealize.ShloMosaic.ValueIdx
open Cert.KernelIdeal Cert.KernelIdeal.Gen Cert.KernelIdeal.Block

theorem hz : (![0, 0] : Fin 2 → Nat) = fun _ => 0 := funext fun a => by fin_cases a <;> rfl

/-- A hidden layer's dense step on whole arrays: entry (r, q) is
    max ((∑ k, (x (r,k) + a (r,k)) * w (k,q)) + b (0,q)) 0. -/
def hidden (x a : S100000x128.Idx → EReal) (w : S128x128.Idx → EReal) (b : S1x128.Idx → EReal) : S100000x128.Idx → EReal :=
  fun i => max ((∑ k : Fin 128, (x (ix2 ⟨(i 0).val, (i 0).isLt⟩ k) + a (ix2 ⟨(i 0).val, (i 0).isLt⟩ k)) * w (ix2 k ⟨(i 1).val, (i 1).isLt⟩))
      + b (ix2 0 ⟨(i 1).val, (i 1).isLt⟩)) (Ideal.ofBits .f32 0x00000000#32)

/-- The last layer's: no maximum, 64 columns. -/
def last (x a : S100000x128.Idx → EReal) (w : S128x64.Idx → EReal) (b : S1x64.Idx → EReal) : S100000x64.Idx → EReal :=
  fun i => (∑ k : Fin 128, (x (ix2 ⟨(i 0).val, (i 0).isLt⟩ k) + a (ix2 ⟨(i 0).val, (i 0).isLt⟩ k)) * w (ix2 k ⟨(i 1).val, (i 1).isLt⟩))
      + b (ix2 0 ⟨(i 1).val, (i 1).isLt⟩)

/-! ## A block entry is an array entry -/

/-- If row p of the two row blocks is row (i 0) of the arrays X and A, column q of the weight block is column (i 1) of W
    and entry q of the bias block is entry (i 1) of B, the first hidden layer's stored entry (p, q) is `hidden` at i. -/
theorem hidden_of_block0 (x0 x1 : Vec Ideal S5000x128 .f32) (w : Vec Ideal S128x128 .f32) (b : Vec Ideal S1x128 .f32)
    (X A : S100000x128.Idx → EReal) (W : S128x128.Idx → EReal) (B : S1x128.Idx → EReal)
    (p : Fin 5000) (q : Fin 128) (i : S100000x128.Idx)
    (hx : ∀ k : Fin 128, x0 (ix2 p k) = X (ix2 ⟨(i 0).val, (i 0).isLt⟩ k))
    (ha : ∀ k : Fin 128, x1 (ix2 p k) = A (ix2 ⟨(i 0).val, (i 0).isLt⟩ k))
    (hw : ∀ k : Fin 128, w (ix2 k q) = W (ix2 k ⟨(i 1).val, (i 1).isLt⟩))
    (hb : b (ix2 0 q) = B (ix2 0 ⟨(i 1).val, (i 1).isLt⟩)) :
    k0_pay1 x0 x1 w b (ix2 p q) = hidden X A W B i := by
  rw [pay0_apply]
  unfold hidden
  simp only [hx, ha, hw, hb]

/-- The same for the second hidden layer's body. -/
theorem hidden_of_block1 (x0 x1 : Vec Ideal S5000x128 .f32) (w : Vec Ideal S128x128 .f32) (b : Vec Ideal S1x128 .f32)
    (X A : S100000x128.Idx → EReal) (W : S128x128.Idx → EReal) (B : S1x128.Idx → EReal)
    (p : Fin 5000) (q : Fin 128) (i : S100000x128.Idx)
    (hx : ∀ k : Fin 128, x0 (ix2 p k) = X (ix2 ⟨(i 0).val, (i 0).isLt⟩ k))
    (ha : ∀ k : Fin 128, x1 (ix2 p k) = A (ix2 ⟨(i 0).val, (i 0).isLt⟩ k))
    (hw : ∀ k : Fin 128, w (ix2 k q) = W (ix2 k ⟨(i 1).val, (i 1).isLt⟩))
    (hb : b (ix2 0 q) = B (ix2 0 ⟨(i 1).val, (i 1).isLt⟩)) :
    k1_pay1 x0 x1 w b (ix2 p q) = hidden X A W B i := by
  rw [pay1_apply]
  unfold hidden
  simp only [hx, ha, hw, hb]

/-- And for the last layer's. -/
theorem last_of_block2 (x0 x1 : Vec Ideal S5000x128 .f32) (w : Vec Ideal S128x64 .f32) (b : Vec Ideal S1x64 .f32)
    (X A : S100000x128.Idx → EReal) (W : S128x64.Idx → EReal) (B : S1x64.Idx → EReal)
    (p : Fin 5000) (q : Fin 64) (i : S100000x64.Idx)
    (hx : ∀ k : Fin 128, x0 (ix2 p k) = X (ix2 ⟨(i 0).val, (i 0).isLt⟩ k))
    (ha : ∀ k : Fin 128, x1 (ix2 p k) = A (ix2 ⟨(i 0).val, (i 0).isLt⟩ k))
    (hw : ∀ k : Fin 128, w (ix2 k q) = W (ix2 k ⟨(i 1).val, (i 1).isLt⟩))
    (hb : b (ix2 0 q) = B (ix2 0 ⟨(i 1).val, (i 1).isLt⟩)) :
    k2_pay1 x0 x1 w b (ix2 p q) = last X A W B i := by
  rw [pay2_apply]
  unfold last
  simp only [hx, ha, hw, hb]

end Cert.KernelIdeal.Layer

end
-- ==== Proof.Region0.lean ====
/-
  The first hidden layer's region: its 20 points write the 20 row blocks of `hidden` of the feature array, its
  neighbour sums, the first weight matrix and the first bias row, and the blocks tile the result.
-/
import proofs.«116238_j45792941310041_1_alg».proof.Proof.Gen.KernelIdeal.Frame
import proofs.«116238_j45792941310041_1_alg».proof.Proof.Layer

set_option maxRecDepth 16384

noncomputable section

namespace Cert.KernelIdeal.Layer

open Idealize.ShloMosaic Idealize.ShloMosaic.TcCoe Idealize.ShloMosaic.ValueIdx Idealize.SL.Sem
open Cert.KernelIdeal Cert.KernelIdeal.Gen Cert.KernelIdeal.Block
open Idealize.ShloMosaic.Pipeline (Dat)

variable (V : (c : Dev nD) → (b : Ref sig .tc) → Buf (Elt Ideal) ((c : Thread nD τ).loc b))

/-! ## The first hidden layer's region -/

/-- The printed index maps over the 20 points: the three row-tiled windows sit at block (t, 0), the weights and the
    bias row at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point t writes back is block t of `hidden` of the arrays the region found on entry. -/
theorem flushed0 (c : Dev nD) (t : Fin cfg0.N) :
    (dat0 V c).flushed 4 t = ((cfg0.win 4).blk t).view.read (Elt Ideal)
      (hidden (V c main_arg0) (V c main_v13) (V c main_arg2) (V c main_v14)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41⟩ := idx0 t
  funext j
  have hj0 : (j 0).val < 5000 := (j 0).isLt
  have hj1 : (j 1).val < 128 := (j 1).isLt
  show k0_pay1 (iblk0 V c 0 t) (iblk0 V c 1 t) (iblk0 V c 2 t) (iblk0 V c 3 t) j
    = hidden (V c main_arg0) (V c main_v13) (V c main_arg2) (V c main_v14) (((cfg0.win 4).blk t).view.emb j)
  refine (congrArg (k0_pay1 (iblk0 V c 0 t) (iblk0 V c 1 t) (iblk0 V c 2 t) (iblk0 V c 3 t))
    (eq_ix2 (n0 := 5000) (n1 := 128) j)).trans ?_
  refine hidden_of_block0 (iblk0 V c 0 t) (iblk0 V c 1 t) (iblk0 V c 2 t) (iblk0 V c 3 t)
    (V c main_arg0) (V c main_v13) (V c main_arg2) (V c main_v14) (j 0) (j 1) (((cfg0.win 4).blk t).view.emb j) ?_ ?_ ?_ ?_
  · intro k
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  · intro k
    show V c main_v13 (((cfg0.win 1).blk t).view.emb (ix2 (j 0) k)) = _
    refine congrArg (V c main_v13) (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * k.val = k.val; omega
  · intro k
    show V c main_arg2 (((cfg0.win 2).blk t).view.emb (ix2 k (j 1))) = _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_4.index t (1 : Fin 2) * 128 + 1 * (j 1).val; omega
  · show V c main_v14 (((cfg0.win 3).blk t).view.emb (ix2 0 (j 1))) = _
    refine congrArg (V c main_v14) (funext fun a => Fin.ext ?_)
    match a with
    | ⟨0, _⟩ => show win0_3.index t (0 : Fin 2) * 1 + 1 * 0 = 0; omega
    | ⟨1, _⟩ => show win0_3.index t (1 : Fin 2) * 128 + 1 * (j 1).val = win0_4.index t (1 : Fin 2) * 128 + 1 * (j 1).val; omega

/-- An index of the result array is in point t's block iff each coordinate is in the block's range on its axis. -/
theorem mem_blk0 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v15).slice (win0_4.rect t)).set ↔ _
  rw [View.set_slice_whole, Rect.mem_set_unit]
  exact Iff.rfl

/-- The 20 blocks tile the rows: row r lies in the block of point r / 5000. -/
theorem cover0 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : grid0.N = 20 := N_0
  have ht : (i 0).val / 5000 < grid0.N := by omega
  obtain ⟨-, -, -, -, -, -, -, -, e40, e41⟩ := idx0 ⟨(i 0).val / 5000, ht⟩
  have e40' : win0_4.index ⟨(i 0).val / 5000, ht⟩ (0 : Fin 2) = (i 0).val / 5000 := e40
  refine ⟨⟨(i 0).val / 5000, ht⟩, flush0_4 _, ?_⟩
  rw [mem_blk0]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    omega

/-- After the last point the result array is `hidden` of the arrays the region found on entry. -/
theorem final0 (c : Dev nD) :
    (dat0 V c).arrAt 4 cfg0.N = hidden (V c main_arg0) (V c main_v13) (V c main_arg2) (V c main_v14) :=
  (dat0 V c).arrAt_eq_of_cover 4 _ (fun t _ => flushed0 V c t) cover0

end Cert.KernelIdeal.Layer

end
-- ==== Proof.Region1.lean ====
/-
  The second hidden layer's region: the same 20 row blocks of `hidden`, now of the first layer's output, its
  neighbour sums, the middle weight matrix and bias row.
-/
import proofs.«116238_j45792941310041_1_alg».proof.Proof.Gen.KernelIdeal.Frame
import proofs.«116238_j45792941310041_1_alg».proof.Proof.Layer

set_option maxRecDepth 16384

noncomputable section

namespace Cert.KernelIdeal.Layer

open Idealize.ShloMosaic Idealize.ShloMosaic.TcCoe Idealize.ShloMosaic.ValueIdx Idealize.SL.Sem
open Cert.KernelIdeal Cert.KernelIdeal.Gen Cert.KernelIdeal.Block
open Idealize.ShloMosaic.Pipeline (Dat)

variable (V : (c : Dev nD) → (b : Ref sig .tc) → Buf (Elt Ideal) ((c : Thread nD τ).loc b))

/-! ## The second hidden layer's region -/

/-- The printed index maps over the 20 points: the three row-tiled windows sit at block (t, 0), the weights and the
    bias row at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of `hidden` of the arrays the region found on entry. -/
theorem flushed1 (c : Dev nD) (t : Fin cfg1.N) :
    (dat1 V c).flushed 4 t = ((cfg1.win 4).blk t).view.read (Elt Ideal)
      (hidden (V c main_v15) (V c main_v25) (V c main_arg4) (V c main_v26)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41⟩ := idx1 t
  funext j
  have hj0 : (j 0).val < 5000 := (j 0).isLt
  have hj1 : (j 1).val < 128 := (j 1).isLt
  show k1_pay1 (iblk1 V c 0 t) (iblk1 V c 1 t) (iblk1 V c 2 t) (iblk1 V c 3 t) j
    = hidden (V c main_v15) (V c main_v25) (V c main_arg4) (V c main_v26) (((cfg1.win 4).blk t).view.emb j)
  refine (congrArg (k1_pay1 (iblk1 V c 0 t) (iblk1 V c 1 t) (iblk1 V c 2 t) (iblk1 V c 3 t))
    (eq_ix2 (n0 := 5000) (n1 := 128) j)).trans ?_
  refine hidden_of_block1 (iblk1 V c 0 t) (iblk1 V c 1 t) (iblk1 V c 2 t) (iblk1 V c 3 t)
    (V c main_v15) (V c main_v25) (V c main_arg4) (V c main_v26) (j 0) (j 1) (((cfg1.win 4).blk t).view.emb j) ?_ ?_ ?_ ?_
  · intro k
    show V c main_v15 (((cfg1.win 0).blk t).view.emb (ix2 (j 0) k)) = _
    refine congrArg (V c main_v15) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * k.val = k.val; omega
  · intro k
    show V c main_v25 (((cfg1.win 1).blk t).view.emb (ix2 (j 0) k)) = _
    refine congrArg (V c main_v25) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * k.val = k.val; omega
  · intro k
    show V c main_arg4 (((cfg1.win 2).blk t).view.emb (ix2 k (j 1))) = _
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  · show V c main_v26 (((cfg1.win 3).blk t).view.emb (ix2 0 (j 1))) = _
    refine congrArg (V c main_v26) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the result array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v27).slice (win1_4.rect t)).set ↔ _
  rw [View.set_slice_whole, Rect.mem_set_unit]
  exact Iff.rfl

/-- The 20 blocks tile the rows: row r lies in the block of point r / 5000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  have ht : (i 0).val / 5000 < grid1.N := by omega
  obtain ⟨-, -, -, -, -, -, -, -, e40, e41⟩ := idx1 ⟨(i 0).val / 5000, ht⟩
  have e40' : win1_4.index ⟨(i 0).val / 5000, ht⟩ (0 : Fin 2) = (i 0).val / 5000 := e40
  refine ⟨⟨(i 0).val / 5000, ht⟩, flush1_4 _, ?_⟩
  rw [mem_blk1]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    omega

/-- After the last point the result array is `hidden` of the arrays the region found on entry. -/
theorem final1 (c : Dev nD) :
    (dat1 V c).arrAt 4 cfg1.N = hidden (V c main_v15) (V c main_v25) (V c main_arg4) (V c main_v26) :=
  (dat1 V c).arrAt_eq_of_cover 4 _ (fun t _ => flushed1 V c t) cover1

end Cert.KernelIdeal.Layer

end
-- ==== Proof.Region2.lean ====
/-
  The last layer's region: 20 row blocks of `last` (no maximum, 64 columns) of the second layer's output, its
  neighbour sums, the last weight matrix and bias row.
-/
import proofs.«116238_j45792941310041_1_alg».proof.Proof.Gen.KernelIdeal.Frame
import proofs.«116238_j45792941310041_1_alg».proof.Proof.Layer

set_option maxRecDepth 16384

noncomputable section

namespace Cert.KernelIdeal.Layer

open Idealize.ShloMosaic Idealize.ShloMosaic.TcCoe Idealize.ShloMosaic.ValueIdx Idealize.SL.Sem
open Cert.KernelIdeal Cert.KernelIdeal.Gen Cert.KernelIdeal.Block
open Idealize.ShloMosaic.Pipeline (Dat)

variable (V : (c : Dev nD) → (b : Ref sig .tc) → Buf (Elt Ideal) ((c : Thread nD τ).loc b))

/-! ## The last layer's region -/

/-- The printed index maps over the 20 points: the three row-tiled windows sit at block (t, 0), the weights and the
    bias row at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point t writes back is block t of `last` of the arrays the region found on entry. -/
theorem flushed2 (c : Dev nD) (t : Fin cfg2.N) :
    (dat2 V c).flushed 4 t = ((cfg2.win 4).blk t).view.read (Elt Ideal)
      (last (V c main_v27) (V c main_v37) (V c main_arg6) (V c main_v38)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41⟩ := idx2 t
  funext j
  have hj0 : (j 0).val < 5000 := (j 0).isLt
  have hj1 : (j 1).val < 64 := (j 1).isLt
  show k2_pay1 (iblk2 V c 0 t) (iblk2 V c 1 t) (iblk2 V c 2 t) (iblk2 V c 3 t) j
    = last (V c main_v27) (V c main_v37) (V c main_arg6) (V c main_v38) (((cfg2.win 4).blk t).view.emb j)
  refine (congrArg (k2_pay1 (iblk2 V c 0 t) (iblk2 V c 1 t) (iblk2 V c 2 t) (iblk2 V c 3 t))
    (eq_ix2 (n0 := 5000) (n1 := 64) j)).trans ?_
  refine last_of_block2 (iblk2 V c 0 t) (iblk2 V c 1 t) (iblk2 V c 2 t) (iblk2 V c 3 t)
    (V c main_v27) (V c main_v37) (V c main_arg6) (V c main_v38) (j 0) (j 1) (((cfg2.win 4).blk t).view.emb j) ?_ ?_ ?_ ?_
  · intro k
    show V c main_v27 (((cfg2.win 0).blk t).view.emb (ix2 (j 0) k)) = _
    refine congrArg (V c main_v27) (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 128 + 1 * k.val = k.val; omega
  · intro k
    show V c main_v37 (((cfg2.win 1).blk t).view.emb (ix2 (j 0) k)) = _
    refine congrArg (V c main_v37) (funext fun a => Fin.ext ?_)
    match a with
    | ⟨0, _⟩ => show win2_1.index t (0 : Fin 2) * 5000 + 1 * (j 0).val = win2_4.index t (0 : Fin 2) * 5000 + 1 * (j 0).val; omega
    | ⟨1, _⟩ => show win2_1.index t (1 : Fin 2) * 128 + 1 * k.val = k.val; omega
  · intro k
    show V c main_arg6 (((cfg2.win 2).blk t).view.emb (ix2 k (j 1))) = _
    refine congrArg (V c main_arg6) (funext fun a => Fin.ext ?_)
    match a with
    | ⟨0, _⟩ => show win2_2.index t (0 : Fin 2) * 128 + 1 * k.val = k.val; omega
    | ⟨1, _⟩ => show win2_2.index t (1 : Fin 2) * 64 + 1 * (j 1).val = win2_4.index t (1 : Fin 2) * 64 + 1 * (j 1).val; omega
  · show V c main_v38 (((cfg2.win 3).blk t).view.emb (ix2 0 (j 1))) = _
    refine congrArg (V c main_v38) (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega

/-- An index of the result array is in point t's block iff each coordinate is in the block's range on its axis. -/
theorem mem_blk2 (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v39).slice (win2_4.rect t)).set ↔ _
  rw [View.set_slice_whole, Rect.mem_set_unit]
  exact Iff.rfl

/-- The 20 blocks tile the rows: row r lies in the block of point r / 5000. -/
theorem cover2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : grid2.N = 20 := N_2
  have ht : (i 0).val / 5000 < grid2.N := by omega
  obtain ⟨-, -, -, -, -, -, -, -, e40, e41⟩ := idx2 ⟨(i 0).val / 5000, ht⟩
  have e40' : win2_4.index ⟨(i 0).val / 5000, ht⟩ (0 : Fin 2) = (i 0).val / 5000 := e40
  refine ⟨⟨(i 0).val / 5000, ht⟩, flush2_4 _, ?_⟩
  rw [mem_blk2]
  intro a
  match a with
  | ⟨0, _⟩ =>
    show win2_4.index ⟨(i 0).val / 5000, ht⟩ (0 : Fin 2) * 5000 ≤ (i 0).val
      ∧ (i 0).val < win2_4.index ⟨(i 0).val / 5000, ht⟩ (0 : Fin 2) * 5000 + 5000
    omega
  | ⟨1, _⟩ =>
    show win2_4.index ⟨(i 0).val / 5000, ht⟩ (1 : Fin 2) * 64 ≤ (i 1).val
      ∧ (i 1).val < win2_4.index ⟨(i 0).val / 5000, ht⟩ (1 : Fin 2) * 64 + 64
    omega

/-- After the last point the result array is `last` of the arrays the region found on entry. -/
theorem final2 (c : Dev nD) :
    (dat2 V c).arrAt 4 cfg2.N = last (V c main_v27) (V c main_v37) (V c main_arg6) (V c main_v38) :=
  (dat2 V c).arrAt_eq_of_cover 4 _ (fun t _ => flushed2 V c t) cover2

end Cert.KernelIdeal.Layer

end
-- ==== Proof.Agg.lean ====
/-
  The host side of a layer, as terms that are never opened.

  Row 0 of the edge list holds each edge's source node and row 1 its destination. A layer's neighbour sum takes the
  source row of the feature array for every edge (a negative source index first shifted up by the number of nodes)
  and adds it into the destination row of an array of zeros. Both programs compute it by the same host operations, so
  the proof only ever needs that the two sides apply ONE function to equal arguments.
-/
import proofs.«116238_j45792941310041_1_alg».proof.Proof.Gen.KernelIdeal

noncomputable section

namespace Cert.KernelIdeal.Agg

open Idealize.ShloMosaic Cert.KernelIdeal Cert.KernelIdeal.Gen

variable {F : FTy → Type} [FloatOps F]

/-- Each edge's source node: row 0 of the edge list, as a vector. -/
def src (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Each edge's destination node: row 1 of the edge list, as a vector. -/
def dst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The neighbour sums of `x` along the edges (s, d): gather the source rows, add them into the destination rows of zeros. -/
def nsum (x : (⟨S100000x128, .f32⟩ : BufTy).Contents (Elt F)) (s d : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 x
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A bias vector of 128 as the one-row matrix the kernel's window reads. -/
def row128 (b : (⟨S128, .f32⟩ : BufTy).Contents (Elt F)) : (⟨S1x128, .f32⟩ : BufTy).Contents (Elt F) :=
  shapeCast _ b shapeCasts_S128_S1x128

/-- A bias vector of 64 likewise. -/
def row64 (b : (⟨S64, .f32⟩ : BufTy).Contents (Elt F)) : (⟨S1x64, .f32⟩ : BufTy).Contents (Elt F) :=
  shapeCast _ b shapeCasts_S64_S1x64

end Cert.KernelIdeal.Agg

end
-- ==== Proof.Host0.lean ====
/-
  The host operations before the first region, from any buffer contents Wv: they split the edge list into sources and
  destinations, form the neighbour sums of the feature array, and reshape the first bias vector into a row. The
  other arguments are not written.
-/
import proofs.«116238_j45792941310041_1_alg».proof.Proof.Gen.KernelIdeal.Launch
import proofs.«116238_j45792941310041_1_alg».proof.Proof.Agg
import Idealize.ShloMosaic.Lib.StableHlo.Run

noncomputable section

namespace Cert.KernelIdeal.Host0

open Idealize.ShloMosaic Idealize.ShloMosaic.TcCoe Idealize.SL.Sem Idealize.ShloMosaic.StableHlo
open Cert.KernelIdeal Cert.KernelIdeal.Gen Cert.KernelIdeal.Agg

variable {F : FTy → Type} [FloatOps F]
variable (Wv : Valuation τ sig (Elt F))

/-- Each edge's source node. -/
theorem v1 : StableHlo.after hostOps0 Wv (Proc.devRef .tc main_v1) = src (Wv (Proc.devRef .tc main_arg1)) := by
  after_results <;> rfl
/-- Each edge's destination node. -/
theorem v3 : StableHlo.after hostOps0 Wv (Proc.devRef .tc main_v3) = dst (Wv (Proc.devRef .tc main_arg1)) := by
  after_results <;> rfl
/-- The neighbour sums of the feature array. -/
theorem v13 : StableHlo.after hostOps0 Wv (Proc.devRef .tc main_v13)
    = nsum (Wv (Proc.devRef .tc main_arg0)) (src (Wv (Proc.devRef .tc main_arg1))) (dst (Wv (Proc.devRef .tc main_arg1))) := by
  after_results <;> rfl
/-- The first bias vector as a row. -/
theorem v14 : StableHlo.after hostOps0 Wv (Proc.devRef .tc main_v14) = row128 (Wv (Proc.devRef .tc main_arg3)) := by
  after_results <;> rfl
/-- The stretch does not write `main_arg0`. -/
theorem keep_main_arg0 : StableHlo.after hostOps0 Wv (Proc.devRef .tc main_arg0) = Wv (Proc.devRef .tc main_arg0) := by
  after_results <;> rfl
/-- The stretch does not write `main_arg2`. -/
theorem keep_main_arg2 : StableHlo.after hostOps0 Wv (Proc.devRef .tc main_arg2) = Wv (Proc.devRef .tc main_arg2) := by
  after_results <;> rfl
/-- The stretch does not write `main_arg4`. -/
theorem keep_main_arg4 : StableHlo.after hostOps0 Wv (Proc.devRef .tc main_arg4) = Wv (Proc.devRef .tc main_arg4) := by
  after_results <;> rfl
/-- The stretch does not write `main_arg5`. -/
theorem keep_main_arg5 : StableHlo.after hostOps0 Wv (Proc.devRef .tc main_arg5) = Wv (Proc.devRef .tc main_arg5) := by
  after_results <;> rfl
/-- The stretch does not write `main_arg6`. -/
theorem keep_main_arg6 : StableHlo.after hostOps0 Wv (Proc.devRef .tc main_arg6) = Wv (Proc.devRef .tc main_arg6) := by
  after_results <;> rfl
/-- The stretch does not write `main_arg7`. -/
theorem keep_main_arg7 : StableHlo.after hostOps0 Wv (Proc.devRef .tc main_arg7) = Wv (Proc.devRef .tc main_arg7) := by
  after_results <;> rfl

end Cert.KernelIdeal.Host0

end
-- ==== Proof.Host1.lean ====
/-
  The host operations between the first and second regions, from any buffer contents Wv: the neighbour sums of the
  first layer's output along the same edges, and the middle bias vector as a row. The edge vectors, the first
  layer's output and the later arguments are not written.
-/
import proofs.«116238_j45792941310041_1_alg».proof.Proof.Gen.KernelIdeal.Launch
import proofs.«116238_j45792941310041_1_alg».proof.Proof.Agg
import Idealize.ShloMosaic.Lib.StableHlo.Run

noncomputable section

namespace Cert.KernelIdeal.Host1

open Idealize.ShloMosaic Idealize.ShloMosaic.TcCoe Idealize.SL.Sem Idealize.ShloMosaic.StableHlo
open Cert.KernelIdeal Cert.KernelIdeal.Gen Cert.KernelIdeal.Agg

variable {F : FTy → Type} [FloatOps F]
variable (Wv : Valuation τ sig (Elt F))

/-- The neighbour sums of the first layer's output. -/
theorem v25 : StableHlo.after hostOps1 Wv (Proc.devRef .tc main_v25)
    = nsum (Wv (Proc.devRef .tc main_v15)) (Wv (Proc.devRef .tc main_v1)) (Wv (Proc.devRef .tc main_v3)) := by
  after_results <;> rfl
/-- The middle bias vector as a row. -/
theorem v26 : StableHlo.after hostOps1 Wv (Proc.devRef .tc main_v26) = row128 (Wv (Proc.devRef .tc main_arg5)) := by
  after_results <;> rfl
/-- The stretch does not write `main_v15`. -/
theorem keep_main_v15 : StableHlo.after hostOps1 Wv (Proc.devRef .tc main_v15) = Wv (Proc.devRef .tc main_v15) := by
  after_results <;> rfl
/-- The stretch does not write `main_v1`. -/
theorem keep_main_v1 : StableHlo.after hostOps1 Wv (Proc.devRef .tc main_v1) = Wv (Proc.devRef .tc main_v1) := by
  after_results <;> rfl
/-- The stretch does not write `main_v3`. -/
theorem keep_main_v3 : StableHlo.after hostOps1 Wv (Proc.devRef .tc main_v3) = Wv (Proc.devRef .tc main_v3) := by
  after_results <;> rfl
/-- The stretch does not write `main_arg4`. -/
theorem keep_main_arg4 : StableHlo.after hostOps1 Wv (Proc.devRef .tc main_arg4) = Wv (Proc.devRef .tc main_arg4) := by
  after_results <;> rfl
/-- The stretch does not write `main_arg6`. -/
theorem keep_main_arg6 : StableHlo.after hostOps1 Wv (Proc.devRef .tc main_arg6) = Wv (Proc.devRef .tc main_arg6) := by
  after_results <;> rfl
/-- The stretch does not write `main_arg7`. -/
theorem keep_main_arg7 : StableHlo.after hostOps1 Wv (Proc.devRef .tc main_arg7) = Wv (Proc.devRef .tc main_arg7) := by
  after_results <;> rfl

end Cert.KernelIdeal.Host1

end
-- ==== Proof.Host2.lean ====
/-
  The host operations between the second and last regions, from any buffer contents Wv: the neighbour sums of the
  second layer's output along the same edges, and the last bias vector as a row. The second layer's output and the
  last weight matrix are not written.
-/
import proofs.«116238_j45792941310041_1_alg».proof.Proof.Gen.KernelIdeal.Launch
import proofs.«116238_j45792941310041_1_alg».proof.Proof.Agg
import Idealize.ShloMosaic.Lib.StableHlo.Run

noncomputable section

namespace Cert.KernelIdeal.Host2

open Idealize.ShloMosaic Idealize.ShloMosaic.TcCoe Idealize.SL.Sem Idealize.ShloMosaic.StableHlo
open Cert.KernelIdeal Cert.KernelIdeal.Gen Cert.KernelIdeal.Agg

variable {F : FTy → Type} [FloatOps F]
variable (Wv : Valuation τ sig (Elt F))

/-- The neighbour sums of the second layer's output. -/
theorem v37 : StableHlo.after hostOps2 Wv (Proc.devRef .tc main_v37)
    = nsum (Wv (Proc.devRef .tc main_v27)) (Wv (Proc.devRef .tc main_v1)) (Wv (Proc.devRef .tc main_v3)) := by
  after_results <;> rfl
/-- The last bias vector as a row. -/
theorem v38 : StableHlo.after hostOps2 Wv (Proc.devRef .tc main_v38) = row64 (Wv (Proc.devRef .tc main_arg7)) := by
  after_results <;> rfl
/-- The stretch does not write `main_v27`. -/
theorem keep_main_v27 : StableHlo.after hostOps2 Wv (Proc.devRef .tc main_v27) = Wv (Proc.devRef .tc main_v27) := by
  after_results <;> rfl
/-- The stretch does not write `main_arg6`. -/
theorem keep_main_arg6 : StableHlo.after hostOps2 Wv (Proc.devRef .tc main_arg6) = Wv (Proc.devRef .tc main_arg6) := by
  after_results <;> rfl

end Cert.KernelIdeal.Host2

end
-- ==== Proof.Net.lean ====
/-
  The whole computation as ONE function of the eight arguments.

  With s, d the source and destination of each edge and N(h) the neighbour sums of h along (s, d):
      h1  = max ((x  + N x ) · W1 + b1) 0
      h2  = max ((h1 + N h1) · Wm + bm) 0
      out =      (h2 + N h2) · W2 + b2
  Both programs end with `net` of their arguments in the result array.
-/
import proofs.«116238_j45792941310041_1_alg».proof.Proof.Layer
import proofs.«116238_j45792941310041_1_alg».proof.Proof.Agg

noncomputable section

namespace Cert.KernelIdeal.Net

open Idealize.ShloMosaic Idealize.ShloMosaic.ValueIdx
open Cert.KernelIdeal Cert.KernelIdeal.Gen Cert.KernelIdeal.Layer Cert.KernelIdeal.Agg

/-- The first hidden layer. -/
def h1 (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal)) :
    (⟨S100000x128, .f32⟩ : BufTy).Contents (Elt Ideal) :=
  hidden x (nsum x (src e) (dst e)) w1 (row128 b1)

/-- The second hidden layer. -/
def h2 (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (wm : (⟨S128x128, .f32⟩ : BufTy).Contents (Elt Ideal)) (bm : (⟨S128, .f32⟩ : BufTy).Contents (Elt Ideal)) :
    (⟨S100000x128, .f32⟩ : BufTy).Contents (Elt Ideal) :=
  hidden (h1 x e w1 b1) (nsum (h1 x e w1 b1) (src e) (dst e)) wm (row128 bm)

/-- The output layer: the whole network. -/
def net (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (wm : (⟨S128x128, .f32⟩ : BufTy).Contents (Elt Ideal)) (bm : (⟨S128, .f32⟩ : BufTy).Contents (Elt Ideal))
    (w2 : (⟨S128x64, .f32⟩ : BufTy).Contents (Elt Ideal)) (b2 : (⟨S64, .f32⟩ : BufTy).Contents (Elt Ideal)) :
    (⟨S100000x64, .f32⟩ : BufTy).Contents (Elt Ideal) :=
  last (h2 x e w1 b1 wm bm) (nsum (h2 x e w1 b1 wm bm) (src e) (dst e)) w2 (row64 b2)

/-- Entry (0, q) of a bias vector laid out as a row is entry q of the vector. -/
theorem row128_apply (b : (⟨S128, .f32⟩ : BufTy).Contents (Elt Ideal)) (q : Fin 128) : row128 b (ix2 0 q) = b (ix1 q) := by
  unfold row128
  exact (shapeCast_addUnit_apply ![128] b shapeCasts_S128_S1x128 (ix2 0 q)).trans
    (congrArg b (funext fun a => by match a with | ⟨0, _⟩ => rfl))

theorem row64_apply (b : (⟨S64, .f32⟩ : BufTy).Contents (Elt Ideal)) (q : Fin 64) : row64 b (ix2 0 q) = b (ix1 q) := by
  unfold row64
  exact (shapeCast_addUnit_apply ![64] b shapeCasts_S64_S1x64 (ix2 0 q)).trans
    (congrArg b (funext fun a => by match a with | ⟨0, _⟩ => rfl))

end Cert.KernelIdeal.Net

end
-- ==== Proof.Chain.lean ====
/-
  The fold through the six segments, boundary by boundary, down to the closed form.

  Before the first region the host operations leave the edge sources and destinations, the neighbour sums of the
  features and the first bias row; the region leaves the first hidden layer in its result array and touches nothing
  else. The next stretch forms the neighbour sums of that layer along the same edges, the second region leaves the
  second hidden layer, and so on: the result array of the last region holds `net` of the launch arguments.
-/
import proofs.«116238_j45792941310041_1_alg».proof.Proof.Region0
import proofs.«116238_j45792941310041_1_alg».proof.Proof.Region1
import proofs.«116238_j45792941310041_1_alg».proof.Proof.Region2
import proofs.«116238_j45792941310041_1_alg».proof.Proof.Host0
import proofs.«116238_j45792941310041_1_alg».proof.Proof.Host1
import proofs.«116238_j45792941310041_1_alg».proof.Proof.Host2
import proofs.«116238_j45792941310041_1_alg».proof.Proof.Net

set_option maxRecDepth 16384

noncomputable section

namespace Cert.KernelIdeal.Chain

open Idealize.ShloMosaic Idealize.ShloMosaic.TcCoe Idealize.SL.Sem
open Cert.KernelIdeal Cert.KernelIdeal.Gen Cert.KernelIdeal.Layer Cert.KernelIdeal.Agg Cert.KernelIdeal.Net

variable (m : (ℓ : Loc nD τ sig) → Buf (Elt Ideal) ℓ) (ρ : Dev nD → PrngReg) (c : Dev nD)

/-! ## After the first stretch -/

theorem w1_arg0 : W1 m ρ c (Proc.devRef .tc main_arg0) = (m ((c : Thread nD τ).loc main_arg0)) := Host0.keep_main_arg0 (W0 m ρ c)
theorem w1_arg2 : W1 m ρ c (Proc.devRef .tc main_arg2) = (m ((c : Thread nD τ).loc main_arg2)) := Host0.keep_main_arg2 (W0 m ρ c)
theorem w1_arg4 : W1 m ρ c (Proc.devRef .tc main_arg4) = (m ((c : Thread nD τ).loc main_arg4)) := Host0.keep_main_arg4 (W0 m ρ c)
theorem w1_arg5 : W1 m ρ c (Proc.devRef .tc main_arg5) = (m ((c : Thread nD τ).loc main_arg5)) := Host0.keep_main_arg5 (W0 m ρ c)
theorem w1_arg6 : W1 m ρ c (Proc.devRef .tc main_arg6) = (m ((c : Thread nD τ).loc main_arg6)) := Host0.keep_main_arg6 (W0 m ρ c)
theorem w1_arg7 : W1 m ρ c (Proc.devRef .tc main_arg7) = (m ((c : Thread nD τ).loc main_arg7)) := Host0.keep_main_arg7 (W0 m ρ c)
theorem w1_v1 : W1 m ρ c (Proc.devRef .tc main_v1) = (src (m ((c : Thread nD τ).loc main_arg1))) := Host0.v1 (W0 m ρ c)
theorem w1_v3 : W1 m ρ c (Proc.devRef .tc main_v3) = (dst (m ((c : Thread nD τ).loc main_arg1))) := Host0.v3 (W0 m ρ c)
theorem w1_v13 : W1 m ρ c (Proc.devRef .tc main_v13) = nsum (m ((c : Thread nD τ).loc main_arg0)) (src (m ((c : Thread nD τ).loc main_arg1))) (dst (m ((c : Thread nD τ).loc main_arg1))) := Host0.v13 (W0 m ρ c)
theorem w1_v14 : W1 m ρ c (Proc.devRef .tc main_v14) = row128 (m ((c : Thread nD τ).loc main_arg3)) := Host0.v14 (W0 m ρ c)

/-! ## After the first region -/

/-- The first hidden layer. -/
theorem w2_v15 : W2 m ρ c (Proc.devRef .tc main_v15) = (h1 (m ((c : Thread nD τ).loc main_arg0)) (m ((c : Thread nD τ).loc main_arg1)) (m ((c : Thread nD τ).loc main_arg2)) (m ((c : Thread nD τ).loc main_arg3))) := by
  refine (W2_arr m ρ c 4).trans ((final0 (V1 m ρ) c).trans ?_)
  show hidden (W1 m ρ c (Proc.devRef .tc main_arg0)) (W1 m ρ c (Proc.devRef .tc main_v13)) (W1 m ρ c (Proc.devRef .tc main_arg2)) (W1 m ρ c (Proc.devRef .tc main_v14)) = _
  rw [w1_arg0, w1_v13, w1_arg2, w1_v14]
  rfl
theorem w2_v1 : W2 m ρ c (Proc.devRef .tc main_v1) = (src (m ((c : Thread nD τ).loc main_arg1))) := (W2_of_ne m ρ c main_v1 (by decide)).trans (w1_v1 m ρ c)
theorem w2_v3 : W2 m ρ c (Proc.devRef .tc main_v3) = (dst (m ((c : Thread nD τ).loc main_arg1))) := (W2_of_ne m ρ c main_v3 (by decide)).trans (w1_v3 m ρ c)
theorem w2_arg4 : W2 m ρ c (Proc.devRef .tc main_arg4) = (m ((c : Thread nD τ).loc main_arg4)) := (W2_of_ne m ρ c main_arg4 (by decide)).trans (w1_arg4 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)

/-! ## After the second stretch -/

theorem w3_v15 : W3 m ρ c (Proc.devRef .tc main_v15) = (h1 (m ((c : Thread nD τ).loc main_arg0)) (m ((c : Thread nD τ).loc main_arg1)) (m ((c : Thread nD τ).loc main_arg2)) (m ((c : Thread nD τ).loc main_arg3))) := (Host1.keep_main_v15 (W2 m ρ c)).trans (w2_v15 m ρ c)
theorem w3_v1 : W3 m ρ c (Proc.devRef .tc main_v1) = (src (m ((c : Thread nD τ).loc main_arg1))) := (Host1.keep_main_v1 (W2 m ρ c)).trans (w2_v1 m ρ c)
theorem w3_v3 : W3 m ρ c (Proc.devRef .tc main_v3) = (dst (m ((c : Thread nD τ).loc main_arg1))) := (Host1.keep_main_v3 (W2 m ρ c)).trans (w2_v3 m ρ c)
theorem w3_arg4 : W3 m ρ c (Proc.devRef .tc main_arg4) = (m ((c : Thread nD τ).loc main_arg4)) := (Host1.keep_main_arg4 (W2 m ρ c)).trans (w2_arg4 m ρ c)
theorem w3_arg6 : W3 m ρ c (Proc.devRef .tc main_arg6) = (m ((c : Thread nD τ).loc main_arg6)) := (Host1.keep_main_arg6 (W2 m ρ c)).trans (w2_arg6 m ρ c)
theorem w3_arg7 : W3 m ρ c (Proc.devRef .tc main_arg7) = (m ((c : Thread nD τ).loc main_arg7)) := (Host1.keep_main_arg7 (W2 m ρ c)).trans (w2_arg7 m ρ c)
theorem w3_v25 : W3 m ρ c (Proc.devRef .tc main_v25) = nsum (h1 (m ((c : Thread nD τ).loc main_arg0)) (m ((c : Thread nD τ).loc main_arg1)) (m ((c : Thread nD τ).loc main_arg2)) (m ((c : Thread nD τ).loc main_arg3))) (src (m ((c : Thread nD τ).loc main_arg1))) (dst (m ((c : Thread nD τ).loc main_arg1))) :=
  (Host1.v25 (W2 m ρ c)).trans (by rw [w2_v15, w2_v1, w2_v3])
theorem w3_v26 : W3 m ρ c (Proc.devRef .tc main_v26) = row128 (m ((c : Thread nD τ).loc main_arg5)) :=
  (Host1.v26 (W2 m ρ c)).trans (by rw [w2_arg5])

/-! ## After the second region -/

/-- The second hidden layer. -/
theorem w4_v27 : W4 m ρ c (Proc.devRef .tc main_v27) = (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W4_arr m ρ c 4).trans ((final1 (V3 m ρ) c).trans ?_)
  show hidden (W3 m ρ c (Proc.devRef .tc main_v15)) (W3 m ρ c (Proc.devRef .tc main_v25)) (W3 m ρ c (Proc.devRef .tc main_arg4)) (W3 m ρ c (Proc.devRef .tc main_v26)) = _
  rw [w3_v15, w3_v25, w3_arg4, w3_v26]
  rfl
theorem w4_v1 : W4 m ρ c (Proc.devRef .tc main_v1) = (src (m ((c : Thread nD τ).loc main_arg1))) := (W4_of_ne m ρ c main_v1 (by decide)).trans (w3_v1 m ρ c)
theorem w4_v3 : W4 m ρ c (Proc.devRef .tc main_v3) = (dst (m ((c : Thread nD τ).loc main_arg1))) := (W4_of_ne m ρ c main_v3 (by decide)).trans (w3_v3 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)

/-! ## After the third stretch -/

theorem w5_v27 : W5 m ρ c (Proc.devRef .tc main_v27) = (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := (Host2.keep_main_v27 (W4 m ρ c)).trans (w4_v27 m ρ c)
theorem w5_arg6 : W5 m ρ c (Proc.devRef .tc main_arg6) = (m ((c : Thread nD τ).loc main_arg6)) := (Host2.keep_main_arg6 (W4 m ρ c)).trans (w4_arg6 m ρ c)
theorem w5_v37 : W5 m ρ c (Proc.devRef .tc main_v37) = nsum (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (src (m ((c : Thread nD τ).loc main_arg1))) (dst (m ((c : Thread nD τ).loc main_arg1))) :=
  (Host2.v37 (W4 m ρ c)).trans (by rw [w4_v27, w4_v1, w4_v3])
theorem w5_v38 : W5 m ρ c (Proc.devRef .tc main_v38) = row64 (m ((c : Thread nD τ).loc main_arg7)) :=
  (Host2.v38 (W4 m ρ c)).trans (by rw [w4_arg7])

/-! ## After the last region -/

/-- The result array ends at the whole network of the launch arguments. -/
theorem w6_v39 : W6 m ρ c (Proc.devRef .tc main_v39)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 4).trans ((final2 (V5 m ρ) c).trans ?_)
  show last (W5 m ρ c (Proc.devRef .tc main_v27)) (W5 m ρ c (Proc.devRef .tc main_v37)) (W5 m ρ c (Proc.devRef .tc main_arg6)) (W5 m ρ c (Proc.devRef .tc main_v38)) = _
  rw [w5_v27, w5_v37, w5_arg6, w5_v38]
  rfl

end Cert.KernelIdeal.Chain

end
-- ==== Proof.RefNet.lean ====
/-
  The reference computes the same function.

  Its three layers are the host's operations on whole arrays: the neighbour sums, x + N x, a matrix product with the
  weights, the bias broadcast down the rows, and (twice) the maximum with zero. Read at an index, the product is the
  sum over the contracted index of row r of the left factor times column q of the right one, the broadcast bias is
  entry q of the vector, and the zero splat is zero: entry (r, q) of a layer is the whole-array dense step `hidden`
  (or `last`) at (r, q), and the neighbour sums are the same host term the kernel's program applies.
-/
import proofs.«116238_j45792941310041_1_alg».proof.Proof.Gen.ReferenceIdeal.Read
import proofs.«116238_j45792941310041_1_alg».proof.Proof.Net

noncomputable section

namespace Cert.ReferenceIdeal.Bridge

open Idealize.ShloMosaic Idealize.ShloMosaic.ValueIdx
open Cert.ReferenceIdeal Cert.ReferenceIdeal.Read
open Cert.KernelIdeal.Layer Cert.KernelIdeal.Agg Cert.KernelIdeal.Net

/-! ## The neighbour sums are one host term -/

theorem agg1 (x0 : (⟨S100000x128, .f32⟩ : BufTy).Contents (Elt Ideal)) (x1 : (⟨S2x1600000, .i32⟩ : BufTy).Contents (Elt Ideal)) :
    val_main_v13 (F := Ideal) x0 x1 = nsum x0 (src x1) (dst x1) := rfl
theorem agg2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) :
    val_main_v29 (F := Ideal) x0 x1 x2 x3 = nsum (val_main_v19 (F := Ideal) x0 x1 x2 x3) (src x1) (dst x1) := rfl
theorem agg3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v45 (F := Ideal) x0 x1 x2 x3 x4 x5 = nsum (val_main_v35 (F := Ideal) x0 x1 x2 x3 x4 x5) (src x1) (dst x1) := rfl

/-! ## Each layer is the dense step -/

/-- The first hidden layer. -/
theorem layer1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) :
    val_main_v19 (F := Ideal) x0 x1 x2 x3 = hidden x0 (val_main_v13 (F := Ideal) x0 x1) x2 (row128 x3) := by
  funext i
  rw [val_main_v19_apply, val_main_v18_apply, val_main_v15_apply, val_main_v17_apply, val_main_v16_apply,
    val_main_call0_v0_apply, val_main_call0_cst_apply]
  unfold Cert.KernelIdeal.Layer.hidden
  rw [row128_apply]
  have el : ∀ k, lidx_main_v15 i k = ix2 ⟨(i 0).val, (i 0).isLt⟩ k := fun k => funext fun a => by match a with | ⟨0, _⟩ => rfl | ⟨1, _⟩ => rfl
  have er : ∀ k, ridx_main_v15 i k = ix2 k ⟨(i 1).val, (i 1).isLt⟩ := fun k => funext fun a => by match a with | ⟨0, _⟩ => rfl | ⟨1, _⟩ => rfl
  have eb : idx_main_v16 (idx_main_v17 i) = ix1 ⟨(i 1).val, (i 1).isLt⟩ := funext fun a => by match a with | ⟨0, _⟩ => rfl
  simp only [el, er, eb, val_main_v14_apply]
  rfl

/-- The second hidden layer. -/
theorem layer2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v35 (F := Ideal) x0 x1 x2 x3 x4 x5
      = hidden (val_main_v19 (F := Ideal) x0 x1 x2 x3) (val_main_v29 (F := Ideal) x0 x1 x2 x3) x4 (row128 x5) := by
  funext i
  rw [val_main_v35_apply, val_main_v34_apply, val_main_v31_apply, val_main_v33_apply, val_main_v32_apply,
    val_main_call1_v0_apply, val_main_call1_cst_apply]
  unfold Cert.KernelIdeal.Layer.hidden
  rw [row128_apply]
  have el : ∀ k, lidx_main_v31 i k = ix2 ⟨(i 0).val, (i 0).isLt⟩ k := fun k => funext fun a => by match a with | ⟨0, _⟩ => rfl | ⟨1, _⟩ => rfl
  have er : ∀ k, ridx_main_v31 i k = ix2 k ⟨(i 1).val, (i 1).isLt⟩ := fun k => funext fun a => by match a with | ⟨0, _⟩ => rfl | ⟨1, _⟩ => rfl
  have eb : idx_main_v32 (idx_main_v33 i) = ix1 ⟨(i 1).val, (i 1).isLt⟩ := funext fun a => by match a with | ⟨0, _⟩ => rfl
  simp only [el, er, eb, val_main_v30_apply]
  rfl

/-- The output layer. -/
theorem layer3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v50 (F := Ideal) x0 x1 x2 x3 x4 x5 x6 x7
      = last (val_main_v35 (F := Ideal) x0 x1 x2 x3 x4 x5) (val_main_v45 (F := Ideal) x0 x1 x2 x3 x4 x5) x6 (row64 x7) := by
  funext i
  rw [val_main_v50_apply, val_main_v47_apply, val_main_v49_apply, val_main_v48_apply]
  unfold Cert.KernelIdeal.Layer.last
  rw [row64_apply]
  have el : ∀ k, lidx_main_v47 i k = ix2 ⟨(i 0).val, (i 0).isLt⟩ k := fun k => funext fun a => by match a with | ⟨0, _⟩ => rfl | ⟨1, _⟩ => rfl
  have er : ∀ k, ridx_main_v47 i k = ix2 k ⟨(i 1).val, (i 1).isLt⟩ := fun k => funext fun a => by match a with | ⟨0, _⟩ => rfl | ⟨1, _⟩ => rfl
  have eb : idx_main_v48 (idx_main_v49 i) = ix1 ⟨(i 1).val, (i 1).isLt⟩ := funext fun a => by match a with | ⟨0, _⟩ => rfl
  simp only [el, er, eb, val_main_v46_apply]
  rfl

/-! ## The whole network -/

/-- The reference's result stage is `net` of its arguments. -/
theorem ref_net (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v50 (F := Ideal) x0 x1 x2 x3 x4 x5 x6 x7 = net x0 x1 x2 x3 x4 x5 x6 x7 := by
  rw [layer3, agg3, layer2, agg2, layer1, agg1]
  rfl

end Cert.ReferenceIdeal.Bridge

end
-- ==== Proof.lean ====
/-
  Three graph-convolution layers, computed by dense row-tiled kernels, against the same layers written with whole-array
  operations: the two programs end with equal results on the extended reals.

  With s, d the source and destination node of each edge and N(h) the neighbour sums of h along them, both compute
      h1  = max ((x  + N x ) · W1 + b1) 0,   h2 = max ((h1 + N h1) · Wm + bm) 0,   out = (h2 + N h2) · W2 + b2.
  In the kernel program the neighbour sums are host operations and each "· W + b (max 0)" is a region of 20 points,
  each working on 5000 rows: a point's stored entry (p, q) is the dense step at row 5000 t + p (the format changes
  are the identity on the extended reals and the product into a zero accumulator is the contraction sum), the 20
  blocks tile the rows, so each region leaves the dense step of the arrays it found; folding through the three
  stretches and three regions gives the network of the launch arguments. In the reference the same three layers are
  host operations; read at an index its matrix product is the same contraction sum and its broadcast bias the same
  entry, and its neighbour sums are the very host term the kernel program applies. No law beyond reindexing a finite
  sum and 0 + x = x is used, so the finiteness of the inputs is never opened.

  The idealized kernel is the kernel's own text read on the extended reals (no rewrite was applied), so the
  idealization conjunct is trivial; the two kernel frames are the generated frame theorems, and the reference's
  frame is its run with the result dropped.
-/
import proofs.«116238_j45792941310041_1_alg».proof.Defs
import proofs.«116238_j45792941310041_1_alg».proof.Proof.Gen.Kernel
import proofs.«116238_j45792941310041_1_alg».proof.Proof.Gen.Kernel.Skeleton
import proofs.«116238_j45792941310041_1_alg».proof.Proof.Gen.Kernel.Launch
import proofs.«116238_j45792941310041_1_alg».proof.Proof.Gen.Kernel.Points
import proofs.«116238_j45792941310041_1_alg».proof.Proof.Gen.Kernel.Frame
import proofs.«116238_j45792941310041_1_alg».proof.Proof.Gen.KernelIdeal
import proofs.«116238_j45792941310041_1_alg».proof.Proof.Gen.KernelIdeal.Skeleton
import proofs.«116238_j45792941310041_1_alg».proof.Proof.Gen.KernelIdeal.Launch
import proofs.«116238_j45792941310041_1_alg».proof.Proof.Gen.KernelIdeal.Points
import proofs.«116238_j45792941310041_1_alg».proof.Proof.Gen.KernelIdeal.Frame
import proofs.«116238_j45792941310041_1_alg».proof.Proof.Gen.ReferenceIdeal
import proofs.«116238_j45792941310041_1_alg».proof.Proof.Gen.ReferenceIdeal.Run
import proofs.«116238_j45792941310041_1_alg».proof.Proof.Gen.ReferenceIdeal.Read
import proofs.«116238_j45792941310041_1_alg».proof.Proof.Gen.Pre_finite_inputs
import proofs.«116238_j45792941310041_1_alg».proof.Proof.KernelRun
import proofs.«116238_j45792941310041_1_alg».proof.Proof.Chain
import proofs.«116238_j45792941310041_1_alg».proof.Proof.RefNet
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No rewrite was applied in reading the kernel on the extended reals. -/
theorem preserves : Cert.preserves_Kernel_KernelIdeal := trivial

/-- From memories agreeing on the arguments both programs end with the network of those arguments in the result
    array: the kernel program by the fold through its regions, the reference by reading its layers at an index. -/
theorem algebraic : Cert.algebraic_KernelIdeal_ReferenceIdeal := by
  intro m ρ m' ρ' _ hagree
  refine ⟨fun c => Cert.KernelIdeal.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.w6_v39 m ρ c), (h c).2⟩)
      (Cert.KernelIdeal.Whole.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v50_eq, Cert.ReferenceIdeal.Bridge.ref_net, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
